-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x32 : Shape := ⟨2, ![600000, 32]⟩
abbrev S32x128 : Shape := ⟨2, ![32, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x128 .f32 := Host.absf main_arg9
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x600000 32) (main_arg2 : FVec F S600000x32 .f32) (main_arg3 : FVec F S32x128 .f32) (main_arg4 : FVec F S128 .f32) (main_arg5 : FVec F S128x128 .f32) (main_arg6 : FVec F S128 .f32) (main_arg7 : FVec F S128x128 .f32) (main_arg8 : FVec F S128 .f32) (main_arg9 : FVec F S32x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x32 .f32 := Host.absf main_arg2
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x600000 : Shape := ⟨2, ![2, 600000]⟩
abbrev S600000x32 : Shape := ⟨2, ![600000, 32]⟩
abbrev S32x128 : Shape := ⟨2, ![32, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S600000x128 : Shape := ⟨2, ![600000, 128]⟩
abbrev S4800x32 : Shape := ⟨2, ![4800, 32]⟩
abbrev S4800x128 : Shape := ⟨2, ![4800, 128]⟩
abbrev S1x128 : Shape := ⟨2, ![1, 128]⟩
abbrev S_ : Shape := ⟨0, ![]⟩
abbrev S600000x1 : Shape := ⟨2, ![600000, 1]⟩
abbrev S5000x128 : Shape := ⟨2, ![5000, 128]⟩
abbrev S100000x64 : Shape := ⟨2, ![100000, 64]⟩
abbrev S2000x128 : Shape := ⟨2, ![2000, 128]⟩
abbrev S2000x64 : Shape := ⟨2, ![2000, 64]⟩
abbrev S1x64 : Shape := ⟨2, ![1, 64]⟩

abbrev nBuf : Space → Nat
  | .hbm => 63
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S600000x128, .bf16⟩
  | .hbm, ⟨24, _⟩ => ⟨S600000x128, .bf16⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S100000x128, .f32⟩
  | .hbm, ⟨41, _⟩ => ⟨S600000x1, .i32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S100000x128, .f32⟩
  | .hbm, ⟨60, _⟩ => ⟨S600000x1, .i32⟩
  | .hbm, ⟨61, _⟩ => ⟨S100000x128, .f32⟩
  | .hbm, ⟨62, _⟩ => ⟨S100000x64, .f32⟩
  | .local _ .vmem, ⟨0, _⟩ => ⟨S4800x32, .f32⟩
  | .local _ .vmem, ⟨1, _⟩ => ⟨S4800x32, .f32⟩
  | .local _ .vmem, ⟨2, _⟩ => ⟨S32x128, .f32⟩
  | .local _ .vmem, ⟨3, _⟩ => ⟨S128, .f32⟩
  | .local _ .vmem, ⟨4, _⟩ => ⟨S32x128, .f32⟩
  | .local _ .vmem, ⟨5, _⟩ => ⟨S128, .f32⟩
  | .local _ .vmem, ⟨6, _⟩ => ⟨S4800x128, .bf16⟩
  | .local _ .vmem, ⟨7, _⟩ => ⟨S4800x128, .bf16⟩
  | .local _ .vmem, ⟨8, _⟩ => ⟨S4800x128, .bf16⟩
  | .local _ .vmem, ⟨9, _⟩ => ⟨S4800x128, .bf16⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S128x64, .f32⟩
  | .local _ .vmem, ⟨31, _⟩ => ⟨S64, .f32⟩
  | .local _ .vmem, ⟨32, _⟩ => ⟨S2000x64, .f32⟩
  | .local _ .vmem, ⟨33, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call0_cst : Ref sig .tc := ⟨.hbm, 36, rfl⟩
abbrev main_call0_v0 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_1 : Ref sig .tc := ⟨.hbm, 44, rfl⟩
abbrev main_v19 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call1_cst : Ref sig .tc := ⟨.hbm, 55, rfl⟩
abbrev main_call1_v0 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4800x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4800x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S4800x32_S4800x32_0_0 : ∀ a, (![0, 0] : Fin 2 → Nat) a + S4800x32.size a ≤ S4800x32.size a
  h_S4800x32 : 0 < S4800x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S4800x128 : S1x128.Broadcasts S4800x128
  inb_S4800x128_S4800x128_0_0 : ∀ a, (![0, 0] : Fin 2 → Nat) a + S4800x128.size a ≤ S4800x128.size a
  h_S4800x128 : 0 < S4800x128.numel
  packedbf16_S4800x128_S4800x128_0_0 : (Rect.unit (s := S4800x128) ![0, 0] S4800x128.size inb_S4800x128_S4800x128_0_0).PackedRows (EltTy.packing .bf16)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S4800x32_S32x128_S4800x128_1_0_0_1_n_n_wf : DotDims.WF S4800x32 S32x128 S4800x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x32.size a ≤ S600000x32.size a
  hwx0_0 : ∀ i : grid0.Coords, EltTy.bits .f32 = 32 ∨ (Rect.block (s := S600000x32) S4800x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4800x128.size a ≤ S600000x128.size a
  hwx0_5 : ∀ i : grid0.Coords, EltTy.bits .bf16 = 32 ∨ (Rect.block (s := S600000x128) S4800x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4800x128.size a ≤ S600000x128.size a
  hwx0_6 : ∀ i : grid0.Coords, EltTy.bits .bf16 = 32 ∨ (Rect.block (s := S600000x128) S4800x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S128x64.size a
  hwx2_8 : ∀ i : grid2.Coords, EltTy.bits .f32 = 32 ∨ (Rect.block (s := S128x64) S128x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x64.size a ≤ S100000x64.size a
  hwx2_10 : ∀ i : grid2.Coords, EltTy.bits .f32 = 32 ∨ (Rect.block (s := S100000x64) S2000x64.size (cc2_transform_10 i) (hinb2_10 i)).WholeWords (EltTy.packing .f32)

variable [Facts₀]

def dot_S4800x32_S32x128_S4800x128_1_0_0_1_n_n : DotDims S4800x32 S32x128 S4800x128 where
  lhsContracting := [1]
  rhsContracting := [0]
  lhsNonContracting := [0]
  rhsNonContracting := [1]
  lhsBatch := []
  rhsBatch := []
  wf := dot_S4800x32_S32x128_S4800x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg2) S4800x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S4800x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S4800x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v18) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg17) S128x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg18) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v32) S2000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x32 : Shape := ⟨2, ![600000, 32]⟩
abbrev S32x128 : Shape := ⟨2, ![32, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S_ : Shape := ⟨0, ![]⟩
abbrev S600000x1 : Shape := ⟨2, ![600000, 1]⟩
abbrev S100000x64 : Shape := ⟨2, ![100000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S32x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S600000x128, .f32⟩
  | .hbm, ⟨24, _⟩ => ⟨S1x128, .f32⟩
  | .hbm, ⟨25, _⟩ => ⟨S600000x128, .f32⟩
  | .hbm, ⟨26, _⟩ => ⟨S600000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S100000x128, .f32⟩
  | .hbm, ⟨42, _⟩ => ⟨S600000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S600000x128, .f32⟩
  | .hbm, ⟨58, _⟩ => ⟨S1x128, .f32⟩
  | .hbm, ⟨59, _⟩ => ⟨S600000x128, .f32⟩
  | .hbm, ⟨60, _⟩ => ⟨S600000x128, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S100000x128, .f32⟩
  | .hbm, ⟨76, _⟩ => ⟨S600000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_cst : Ref sig .tc := ⟨.hbm, 37, rfl⟩
abbrev main_call0_v0 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_cst : Ref sig .tc := ⟨.hbm, 49, rfl⟩
abbrev main_call1_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_1 : Ref sig .tc := ⟨.hbm, 61, rfl⟩
abbrev main_v35 : Ref sig .tc := ⟨.hbm, 62, rfl⟩
abbrev main_v36 : Ref sig .tc := ⟨.hbm, 63, rfl⟩
abbrev main_c_2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call2_cst : Ref sig .tc := ⟨.hbm, 71, rfl⟩
abbrev main_call2_v0 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call3_cst : Ref sig .tc := ⟨.hbm, 83, rfl⟩
abbrev main_call3_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S600000x32_S32x128_S600000x128_1_0_0_1_n_n_wf : DotDims.WF S600000x32 S32x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def dot_S600000x32_S32x128_S600000x128_1_0_0_1_n_n : DotDims S600000x32 S32x128 S600000x128 where
  lhsContracting := [1]
  rhsContracting := [0]
  lhsNonContracting := [0]
  rhsNonContracting := [1]
  lhsBatch := []
  rhsBatch := []
  wf := dot_S600000x32_S32x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result named.

  @main is three kernel regions among stretches of host operations. Every weakly fair execution ends, without a
  fault, with every unscoped buffer of a core at the contents the last boundary of the run names: the launch memory
  pushed through each stretch of host operations and, at each region, each output array replaced by what the region's
  write-backs leave. Read at the result buffer this names the result; read at an argument it is the launch contents.
  The launch itself (the windows staged, the body run at every grid point, the blocks flushed) is the library's
  several-region launch theorem applied to the generated segments.
-/
import proofs.«134298_j7404523618681_2_alg».proof.Proof.Gen.KernelIdeal.Frame

set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v32) = W10 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v32 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.Named

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibRowBlocks.lean ====
/-
  Row blocks of matrices over the extended reals.

  `rowsFrom r0 hr A` is rows `r0, …, r0 + m' - 1` of a matrix `A` with `n` rows (`hr : r0 + m' ≤ n`).
  A block of rows of a plain matrix product is the product of that block of rows of the LEFT operand with the whole
  right operand (`prod_rowsFrom`, by `rfl`: entry `(p, q)` of either side is `∑ k, A (r0 + p, k) * B (k, q)`) —
  what a kernel that tiles the rows of a product computes per block. General in every extent; no finiteness is asked.
  Also `zero_offsets`: the literal offsets `![0, 0]` of a whole-block access are the constant zero function.
  Imports the plain-product file `LibMatProd` (namespace `Cert.MatProd`), which must be copied with it.
-/
import proofs.«134298_j7404523618681_2_alg».proof.Proof.LibMatProd

noncomputable section

open scoped BigOperators

namespace Cert.RowBlocks

open Idealize.ShloMosaic Idealize.ShloMosaic.ValueIdx Cert.MatProd

/-- A matrix of extended reals with `M` rows and `N` columns. -/
abbrev Mat (M N : Nat) : Type := (⟨2, ![M, N]⟩ : Shape).Idx → EReal

variable {n f l m' : Nat}

/-- The zero offsets of a whole-block access, however they are spelt. -/
theorem zero_offsets : (![0, 0] : Fin 2 → Nat) = fun _ => 0 := funext fun a => by fin_cases a <;> rfl

/-- Rows `r0, …, r0 + m' - 1` of a matrix. -/
def rowsFrom (r0 : Nat) (hr : r0 + m' ≤ n) (A : Mat n f) : Mat m' f :=
  fun y => A (ix2 ⟨r0 + (y 0).val, by have := idx2_lt0 y; omega⟩ (y 1))

/-- Entry `(p, q)` of the block is entry `(r0 + p, q)` of the matrix. -/
theorem rowsFrom_apply (r0 : Nat) (hr : r0 + m' ≤ n) (A : Mat n f) (p : Fin m') (q : Fin f) :
    rowsFrom r0 hr A (ix2 p q) = A (ix2 ⟨r0 + p.val, by have := p.isLt; omega⟩ q) := rfl

/-- A block of rows of a product is the product of that block of rows of the left operand. -/
theorem prod_rowsFrom (r0 : Nat) (hr : r0 + m' ≤ n) (A : Mat n f) (B : Mat f l) :
    prod (rowsFrom r0 hr A) B = rowsFrom r0 hr (prod A B) := rfl

/-- A function applied entry by entry commutes with taking a block of rows. -/
theorem map_rowsFrom (g : EReal → EReal) (r0 : Nat) (hr : r0 + m' ≤ n) (A : Mat n f) :
    (fun i => g (rowsFrom r0 hr A i)) = rowsFrom r0 hr (fun i => g (A i)) := rfl

end Cert.RowBlocks

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.Spec.lean ====
/-
  Dense layers over the extended reals, as whole-array functions.

  A dense layer is a matrix product plus a bias row: entry (i, j) of `dense A W b` is `∑ k, A (i, k) * W (k, j) + b j`.
  The two graph-convolution updates and the read-out of this network are compositions of such layers with an entrywise
  clamp at zero and an entrywise hyperbolic tangent:
    conv x a Wa ba Wb bb = tanh (dense (relu (dense (x + a) Wa ba)) Wb bb)
    head t W1 b1 W2 b2   = dense (tanh (dense t W1 b1)) W2 b2.
  Every one of them acts row by row, so a block of rows of the result is the same function of that block of rows of
  the row-wise operands (`*_rows`, by unfolding). Both the kernel's spelling of a layer (a matrix product into a zero
  accumulator, the bias reshaped to a row and repeated down the rows) and the host's (a `dot_general`, the bias
  broadcast in two steps) are this one function: `kernel_dense_eq`, `host_dense_eq`. No sum is re-ordered and no
  factor moved, so no finiteness is needed anywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«134298_j7404523618681_2_alg».proof.Proof.LibMatProd
import proofs.«134298_j7404523618681_2_alg».proof.Proof.LibRowBlocks
import proofs.«134298_j7404523618681_2_alg».proof.Proof.LibBroadcast

noncomputable section

open scoped BigOperators

namespace Cert.Gine

open Idealize.ShloMosaic Idealize.ShloMosaic.ValueIdx Cert.MatProd Cert.RowBlocks

/-- A bias row of `N` extended reals. -/
abbrev Row (N : Nat) : Type := (⟨1, ![N]⟩ : Shape).Idx → EReal

/-- The zero word read as an extended real. -/
abbrev z0 : EReal := Ideal.ofBits .f32 0x00000000#32

variable {M K H N O : Nat}

/-- A dense layer: the product with a weight matrix plus a bias row. -/
def dense (A : Mat M K) (W : Mat K N) (b : Row N) : Mat M N :=
  fun i => prod A W i + b (ix1 (i 1))

/-- The entrywise clamp below at zero. -/
def relu (A : Mat M N) : Mat M N := fun i => max (A i) z0

/-- One graph-convolution update of the node features `x` with the aggregated messages `a`. -/
def conv (x a : Mat M K) (Wa : Mat K H) (ba : Row H) (Wb : Mat H N) (bb : Row N) : Mat M N :=
  fun i => Ideal.tanh (dense (relu (dense (fun j => x j + a j) Wa ba)) Wb bb i)

/-- The two-layer read-out. -/
def head (t : Mat M H) (W1 : Mat H N) (b1 : Row N) (W2 : Mat N O) (b2 : Row O) : Mat M O :=
  dense (fun i => Ideal.tanh (dense t W1 b1 i)) W2 b2

variable {m' : Nat}

theorem dense_rows (r0 : Nat) (hr : r0 + m' ≤ M) (A : Mat M K) (W : Mat K N) (b : Row N) :
    dense (rowsFrom r0 hr A) W b = rowsFrom r0 hr (dense A W b) := rfl

theorem conv_rows (r0 : Nat) (hr : r0 + m' ≤ M) (x a : Mat M K) (Wa : Mat K H) (ba : Row H) (Wb : Mat H N) (bb : Row N) :
    conv (rowsFrom r0 hr x) (rowsFrom r0 hr a) Wa ba Wb bb = rowsFrom r0 hr (conv x a Wa ba Wb bb) := rfl

theorem head_rows (r0 : Nat) (hr : r0 + m' ≤ M) (t : Mat M H) (W1 : Mat H N) (b1 : Row N) (W2 : Mat N O) (b2 : Row O) :
    head (rowsFrom r0 hr t) W1 b1 W2 b2 = rowsFrom r0 hr (head t W1 b1 W2 b2) := rfl

/-- The kernel's bias: the vector reshaped to one row and repeated down the rows, read at an entry. -/
theorem kernel_bias_apply (b : Row N) (hc : (⟨1, ![N]⟩ : Shape).ShapeCasts ⟨2, ![1, N]⟩)
    (hb : (⟨2, ![1, N]⟩ : Shape).Broadcasts ⟨2, ![M, N]⟩) (i : (⟨2, ![M, N]⟩ : Shape).Idx) :
    broadcastTo ⟨2, ![M, N]⟩ (shapeCast ⟨2, ![1, N]⟩ b hc) hb i = b (ix1 (i 1)) := by
  obtain ⟨p, q, rfl⟩ : ∃ (p : Fin M) (q : Fin N), i = ix2 p q := ⟨i 0, i 1, eq_ix2 i⟩
  rw [broadcastTo_1b_ab_apply, shapeCast_a_1a_apply]
  rfl

/-- The host's bias: the vector broadcast to one row, the row broadcast down the rows, read at an entry. -/
theorem host_bias_apply (b : Row N) (h1 : (⟨1, ![N]⟩ : Shape).BroadcastsInDim ⟨2, ![1, N]⟩ ![1])
    (h2 : (⟨2, ![1, N]⟩ : Shape).BroadcastsInDim ⟨2, ![M, N]⟩ ![0, 1]) (i : (⟨2, ![M, N]⟩ : Shape).Idx) :
    broadcastInDim ⟨2, ![M, N]⟩ ![0, 1] h2 (broadcastInDim ⟨2, ![1, N]⟩ ![1] h1 b) i = b (ix1 (i 1)) := by
  obtain ⟨p, q, rfl⟩ : ∃ (p : Fin M) (q : Fin N), i = ix2 p q := ⟨i 0, i 1, eq_ix2 i⟩
  rw [Cert.Layout.rows_of_vec_apply]
  rfl

/-- THE KERNEL'S LAYER is `dense`: a product into a zero accumulator plus the repeated bias row. -/
theorem kernel_dense_eq {φ₁ φ₂ : FTy} (d : DotDims ⟨2, ![M, K]⟩ ⟨2, ![K, N]⟩ ⟨2, ![M, N]⟩) (hd : d = DotDims.plain M K N)
    (a : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩) :
    addf (matmul d none a w (constant ⟨2, ![M, N]⟩ .f32 0x00000000#32))
      (broadcastTo ⟨2, ![M, N]⟩ (shapeCast ⟨2, ![1, N]⟩ b hc) hb) = dense a w b := by
  subst hd
  funext i
  show FloatOps.matmul (DotDims.plain M K N) none a w (constant ⟨2, ![M, N]⟩ .f32 0x00000000#32) i
      + broadcastTo ⟨2, ![M, N]⟩ (shapeCast ⟨2, ![1, N]⟩ b hc) hb i = prod a w i + b (ix1 (i 1))
  rw [matmul_plain_zero_eq, kernel_bias_apply]

/-- THE HOST'S LAYER is `dense`: a `dot_general` plus the bias broadcast in two steps. -/
theorem host_dense_eq {φ₁ φ₂ : FTy} (d : DotDims ⟨2, ![M, K]⟩ ⟨2, ![K, N]⟩ ⟨2, ![M, N]⟩) (hd : d = DotDims.plain M K N)
    (a : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none a w) (broadcastInDim ⟨2, ![M, N]⟩ ![0, 1] h2 (broadcastInDim ⟨2, ![1, N]⟩ ![1] h1 b))
      = dense a w b := by
  subst hd
  funext i
  show FloatOps.dotGeneral (DotDims.plain M K N) none .single a w i
      + broadcastInDim ⟨2, ![M, N]⟩ ![0, 1] h2 (broadcastInDim ⟨2, ![1, N]⟩ ![1] h1 b) i = prod a w i + b (ix1 (i 1))
  rw [dotGeneral_plain_eq, host_bias_apply]

end Cert.Gine

end
-- ==== Proof.HostForm.lean ====
/-
  The reference network as a composition of a few whole-array functions, each spelt with the host's own operations,
  and each of them read as a function of extended reals.

    edgeLin ef We be            the edge features through a dense layer                         [E, 128]
    agg x ei e                  for every node, the sum over its incoming edges of
                                max (x[source] + e, 0)   (a gather, an add, a clamp, a scatter-add) [N, 128]
    convH x a Wa ba Wb bb       tanh (max ((x + a)·Wa + ba, 0)·Wb + bb)                          [N, 128]
    headH t W1 b1 W2 b2         tanh (t·W1 + b1)·W2 + b2                                        [N, 64]

  The reference's result is `headH (convH h (agg h ei (edgeLin ef We2 be2)) …) …` with
  `h = convH x (agg x ei (edgeLin ef We1 be1)) …`: its printed term, regrouped (`res_eq`). The dense layers
  are the functions `Cert.Gine.dense`, `conv` and `head` of the arrays' entries (`edgeLin_eq`, `convH_eq`, `headH_eq`);
  the aggregation is never opened: both programs apply the same host operations there.
-/
import proofs.«134298_j7404523618681_2_alg».proof.ReferenceIdeal
import proofs.«134298_j7404523618681_2_alg».proof.Proof.Gen.ReferenceIdeal
import proofs.«134298_j7404523618681_2_alg».proof.Proof.Gen.ReferenceIdeal.Run
import proofs.«134298_j7404523618681_2_alg».proof.Proof.Spec

noncomputable section

namespace Cert.ReferenceIdeal.RefValue

open Cert.ReferenceIdeal Idealize.ShloMosaic Idealize.ShloMosaic.TcCoe Idealize.SL.Sem
open Cert.ReferenceIdeal.Facts₀ Cert.ReferenceIdeal.Facts

/-- The edge features through a dense layer. -/
def edgeLin (ef : FVec Ideal S600000x32 .f32) (We : FVec Ideal S32x128 .f32) (be : FVec Ideal S128 .f32) : FVec Ideal S600000x128 .f32 :=
  addf (Host.dotGeneral dot_S600000x32_S32x128_S600000x128_1_0_0_1_n_n none ef We)
    (broadcastInDim S600000x128 ![0, 1] bcast_S1x128_S600000x128_0_1 (broadcastInDim S1x128 ![1] bcast_S128_S1x128_1 be))

/-- Row 0 of the edge list: each edge's source node, a negative number counted from the end. -/
def srcIdx (ei : IVec S2x600000 32) : IVec S600000x1 32 :=
  broadcastInDim S600000x1 ![0] bcast_S600000_S600000x1_0
    (select (cmpi .slt (shapeCast _ (extractStridedSlice S1x600000 ![0, 0] ei slices_S2x600000_S1x600000_0_0) shapeCasts_S1x600000_S600000) (broadcastInDim S600000 ![] bcast_S_S600000 (constantI S_ 32 0#32)))
      (addi (shapeCast _ (extractStridedSlice S1x600000 ![0, 0] ei slices_S2x600000_S1x600000_0_0) shapeCasts_S1x600000_S600000) (broadcastInDim S600000 ![] bcast_S_S600000 (constantI S_ 32 100000#32)))
      (shapeCast _ (extractStridedSlice S1x600000 ![0, 0] ei slices_S2x600000_S1x600000_0_0) shapeCasts_S1x600000_S600000))

/-- Row 1 of the edge list: each edge's target node. -/
def dstIdx (ei : IVec S2x600000 32) : IVec S600000x1 32 :=
  broadcastInDim S600000x1 ![0] bcast_S600000_S600000x1_0
    (shapeCast _ (extractStridedSlice S1x600000 ![1, 0] ei slices_S2x600000_S1x600000_1_0) shapeCasts_S1x600000_S600000)

/-- The messages `max (x[source] + e, 0)` summed into their target nodes. -/
def agg (x : FVec Ideal S100000x128 .f32) (ei : IVec S2x600000 32) (e : FVec Ideal S600000x128 .f32) : FVec Ideal S100000x128 .f32 :=
  Host.scatterAdd scatter_S100000x128_S600000x1_S600000x128_1_0_0_1
    (broadcastInDim S100000x128 ![] bcast_S_S100000x128 (constant S_ .f32 0x00000000#32)) (dstIdx ei)
    (maximumf (addf (Host.gather gather_S100000x128_S600000x1_S600000x128_1_0_n_n_0_1_1128 x (srcIdx ei)) e)
      (broadcastInDim S600000x128 ![] bcast_S_S600000x128 (constant S_ .f32 0x00000000#32)))

/-- A dense layer on the node features. -/
def layer (h : FVec Ideal S100000x128 .f32) (W : FVec Ideal S128x128 .f32) (b : FVec Ideal S128 .f32) : FVec Ideal S100000x128 .f32 :=
  addf (Host.dotGeneral dot_S100000x128_S128x128_S100000x128_1_0_0_1_n_n none h W)
    (broadcastInDim S100000x128 ![0, 1] bcast_S1x128_S100000x128_0_1 (broadcastInDim S1x128 ![1] bcast_S128_S1x128_1 b))

/-- One graph-convolution update, in the host's operations. -/
def convH (x a : FVec Ideal S100000x128 .f32) (Wa : FVec Ideal S128x128 .f32) (ba : FVec Ideal S128 .f32)
    (Wb : FVec Ideal S128x128 .f32) (bb : FVec Ideal S128 .f32) : FVec Ideal S100000x128 .f32 :=
  Host.tanh (layer (maximumf (layer (addf x a) Wa ba) (broadcastInDim S100000x128 ![] bcast_S_S100000x128 (constant S_ .f32 0x00000000#32))) Wb bb)

/-- The read-out, in the host's operations. -/
def headH (t : FVec Ideal S100000x128 .f32) (W1 : FVec Ideal S128x128 .f32) (b1 : FVec Ideal S128 .f32)
    (W2 : FVec Ideal S128x64 .f32) (b2 : FVec Ideal S64 .f32) : FVec Ideal S100000x64 .f32 :=
  addf (Host.dotGeneral dot_S100000x128_S128x64_S100000x64_1_0_0_1_n_n none (Host.tanh (layer t W1 b1)) W2)
    (broadcastInDim S100000x64 ![0, 1] bcast_S1x64_S100000x64_0_1 (broadcastInDim S1x64 ![1] bcast_S64_S1x64_1 b2))

/-- The whole network. -/
def net (x : FVec Ideal S100000x128 .f32) (ei : IVec S2x600000 32) (ef : FVec Ideal S600000x32 .f32)
    (We1 : FVec Ideal S32x128 .f32) (be1 : FVec Ideal S128 .f32) (W1a : FVec Ideal S128x128 .f32) (b1a : FVec Ideal S128 .f32)
    (W1b : FVec Ideal S128x128 .f32) (b1b : FVec Ideal S128 .f32)
    (We2 : FVec Ideal S32x128 .f32) (be2 : FVec Ideal S128 .f32) (W2a : FVec Ideal S128x128 .f32) (b2a : FVec Ideal S128 .f32)
    (W2b : FVec Ideal S128x128 .f32) (b2b : FVec Ideal S128 .f32)
    (Wf1 : FVec Ideal S128x128 .f32) (bf1 : FVec Ideal S128 .f32) (Wf2 : FVec Ideal S128x64 .f32) (bf2 : FVec Ideal S64 .f32) :
    FVec Ideal S100000x64 .f32 :=
  headH (convH (convH x (agg x ei (edgeLin ef We1 be1)) W1a b1a W1b b1b)
      (agg (convH x (agg x ei (edgeLin ef We1 be1)) W1a b1a W1b b1b) ei (edgeLin ef We2 be2)) W2a b2a W2b b2b) Wf1 bf1 Wf2 bf2

/-- The reference's printed result is the network of its arguments. -/
theorem res_eq (m : (ℓ : Loc nD τ sig) → Buf (Elt Ideal) ℓ) (c : Dev nD) :
    Cert.ReferenceIdeal.Value.res_main_v66 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) := by
  unfold Cert.ReferenceIdeal.Value.res_main_v66 net headH convH layer agg edgeLin srcIdx dstIdx
  rfl

open Cert.Gine in
/-- The edge layer is `dense`. -/
theorem edgeLin_eq (ef : FVec Ideal S600000x32 .f32) (We : FVec Ideal S32x128 .f32) (be : FVec Ideal S128 .f32) :
    edgeLin ef We be = dense ef We be :=
  host_dense_eq _ rfl ef We be _ _

open Cert.Gine in
/-- A node layer is `dense`. -/
theorem layer_eq (h : FVec Ideal S100000x128 .f32) (W : FVec Ideal S128x128 .f32) (b : FVec Ideal S128 .f32) :
    layer h W b = dense h W b :=
  host_dense_eq _ rfl h W b _ _

open Cert.Gine in
/-- The host's graph-convolution update is `conv`. -/
theorem convH_eq (x a : FVec Ideal S100000x128 .f32) (Wa : FVec Ideal S128x128 .f32) (ba : FVec Ideal S128 .f32)
    (Wb : FVec Ideal S128x128 .f32) (bb : FVec Ideal S128 .f32) : convH x a Wa ba Wb bb = conv x a Wa ba Wb bb := by
  unfold convH
  rw [layer_eq, layer_eq]
  rfl

open Cert.Gine in
/-- The host's read-out is `head`. -/
theorem headH_eq (t : FVec Ideal S100000x128 .f32) (W1 : FVec Ideal S128x128 .f32) (b1 : FVec Ideal S128 .f32)
    (W2 : FVec Ideal S128x64 .f32) (b2 : FVec Ideal S64 .f32) : headH t W1 b1 W2 b2 = head t W1 b1 W2 b2 := by
  unfold headH
  rw [layer_eq]
  exact host_dense_eq _ rfl _ W2 b2 _ _

end Cert.ReferenceIdeal.RefValue

end
-- ==== Proof.Pay.lean ====
/-
  The three kernel bodies' stored values as functions of the loaded blocks, over the extended reals.

  A change of float format is the identity there, a matrix product into a zero accumulator is the plain product, and
  the bias reshaped to a row and repeated down the rows adds `b j` to column `j`; so
    * the edge kernel stores `dense ef We be` for each of its two weight sets,
    * the first node kernel stores `conv x a Wa ba Wb bb`,
    * the second node kernel stores `head (conv x a Wa ba Wb bb) W1 b1 W2 b2`,
  each of the blocks the body loaded.
-/
import proofs.«134298_j7404523618681_2_alg».proof.Proof.Gen.KernelIdeal.Skeleton
import proofs.«134298_j7404523618681_2_alg».proof.Proof.Spec

set_option pp.maxSteps 3000
set_option pp.deepTerms false

noncomputable section

namespace Cert.KernelIdeal.Pay

open Cert.KernelIdeal Cert.KernelIdeal.Gen Idealize.ShloMosaic Cert.Gine
open Cert.KernelIdeal.Facts₀ Cert.KernelIdeal.Facts

/-- The edge kernel's first stored value. -/
theorem edge1 (v0 : Vec Ideal S4800x32 .f32) (v2 : Vec Ideal S32x128 .f32) (v5 : Vec Ideal S128 .f32) :
    k0_pay2 v0 v2 v5 = dense v0 v2 v5 := by
  unfold k0_pay2 k0_pay1
  exact kernel_dense_eq _ rfl _ _ _ _ _

/-- The edge kernel's second stored value. -/
theorem edge2 (v0 : Vec Ideal S4800x32 .f32) (v11 : Vec Ideal S32x128 .f32) (v14 : Vec Ideal S128 .f32) :
    k0_pay3 v0 v11 v14 = dense v0 v11 v14 := by
  unfold k0_pay3 k0_pay1
  exact kernel_dense_eq _ rfl _ _ _ _ _

/-- A layer of the first node kernel, on a block of 5000 rows. -/
theorem layer5000 {φ₁ φ₂ : FTy} (a : FVec Ideal S5000x128 φ₁) (w : FVec Ideal S128x128 φ₂) (b : FVec Ideal S128 .f32)
    (hc : S128.ShapeCasts S1x128) (hb : S1x128.Broadcasts S5000x128) :
    addf (matmul dot_S5000x128_S128x128_S5000x128_1_0_0_1_n_n none a w (constant S5000x128 .f32 0x00000000#32))
      (broadcastTo S5000x128 (shapeCast S1x128 b hc) hb) = dense a w b :=
  kernel_dense_eq _ rfl a w b hc hb

/-- A layer of the second node kernel, on a block of 2000 rows. -/
theorem layer2000 {φ₁ φ₂ : FTy} (a : FVec Ideal S2000x128 φ₁) (w : FVec Ideal S128x128 φ₂) (b : FVec Ideal S128 .f32)
    (hc : S128.ShapeCasts S1x128) (hb : S1x128.Broadcasts S2000x128) :
    addf (matmul dot_S2000x128_S128x128_S2000x128_1_0_0_1_n_n none a w (constant S2000x128 .f32 0x00000000#32))
      (broadcastTo S2000x128 (shapeCast S1x128 b hc) hb) = dense a w b :=
  kernel_dense_eq _ rfl a w b hc hb

/-- The last layer of the second node kernel, on a block of 2000 rows. -/
theorem layer2000x64 {φ₁ φ₂ : FTy} (a : FVec Ideal S2000x128 φ₁) (w : FVec Ideal S128x64 φ₂) (b : FVec Ideal S64 .f32)
    (hc : S64.ShapeCasts S1x64) (hb : S1x64.Broadcasts S2000x64) :
    addf (matmul dot_S2000x128_S128x64_S2000x64_1_0_0_1_n_n none a w (constant S2000x64 .f32 0x00000000#32))
      (broadcastTo S2000x64 (shapeCast S1x64 b hc) hb) = dense a w b :=
  kernel_dense_eq _ rfl a w b hc hb

/-- The first node kernel's stored value. -/
theorem node1 (v0 v1 : Vec Ideal S5000x128 .f32) (v5 : Vec Ideal S128x128 .f32) (v8 : Vec Ideal S128 .f32)
    (v15 : Vec Ideal S128x128 .f32) (v18 : Vec Ideal S128 .f32) :
    k1_pay1 v0 v1 v5 v8 v15 v18 = conv v0 v1 v5 v8 v15 v18 := by
  unfold k1_pay1
  dsimp only
  rw [layer5000, layer5000, shapeCast_self]
  rfl

/-- The second node kernel's stored value. -/
theorem node2 (v0 v2 : Vec Ideal S2000x128 .f32) (v6 : Vec Ideal S128x128 .f32) (v9 : Vec Ideal S128 .f32)
    (v16 : Vec Ideal S128x128 .f32) (v19 : Vec Ideal S128 .f32) (v25 : Vec Ideal S128x128 .f32) (v28 : Vec Ideal S128 .f32)
    (v34 : Vec Ideal S128x64 .f32) (v37 : Vec Ideal S64 .f32) :
    k2_pay1 (k2_pay2 v0 v2 v6 v9 v16 v19 v25 v28 v34) v37 = head (conv v0 v2 v6 v9 v16 v19) v25 v28 v34 v37 := by
  unfold k2_pay1 k2_pay2
  dsimp only
  rw [layer2000x64, layer2000, layer2000, layer2000, shapeCast_self, shapeCast_self]
  rfl

end Cert.KernelIdeal.Pay

end
-- ==== Proof.Region0.lean ====
/-
  The edge kernel's two output arrays, each as one function of the arrays the region finds.

  The grid has 125 points; point `t` reads rows `4800 t … 4800 t + 4799` of the edge features and both weight sets
  whole, and writes rows `4800 t … 4800 t + 4799` of both outputs. A dense layer acts row by row, so what a point writes
  back is that block of rows of the layer of the whole arrays; the 125 blocks tile each array, which therefore ends
  holding `dense ef We be` for its weight set.
-/
import proofs.«134298_j7404523618681_2_alg».proof.Proof.Gen.KernelIdeal.Frame
import proofs.«134298_j7404523618681_2_alg».proof.Proof.Pay

set_option maxRecDepth 16384
set_option pp.maxSteps 3000
set_option pp.deepTerms false

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)
open Cert.Gine Cert.RowBlocks Cert.MatProd

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row windows move with the point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem rows_le (t : Fin cfg0.N) : 4800 * t.val + 4800 ≤ 600000 := by
  have h1 : t.val < cfg0.N := t.isLt
  have h2 : cfg0.N = 125 := N_0
  omega

/-- Point `t`'s block of rows of window 0's array. -/
theorem blk0 (c : Dev nD) (t : Fin cfg0.N) :
    (iblk0 V c 0 t : Mat 4800 32) = rowsFrom (4800 * t.val) (rows_le t) (V c main_arg2) := by
  obtain ⟨e0, e1, -⟩ := idx_facts t
  funext y
  show V c main_arg2 (((cfg0.win 0).blk t).view.emb y) = V c main_arg2 (ix2 ⟨4800 * t.val + (y 0).val, _⟩ (y 1))
  refine congrArg _ (funext fun a => Fin.ext ?_)
  match a with
  | ⟨0, _⟩ => show win0_0.index t (0 : Fin 2) * 4800 + 1 * (y 0).val = 4800 * t.val + (y 0).val; omega
  | ⟨1, _⟩ => show win0_0.index t (1 : Fin 2) * 32 + 1 * (y 1).val = (y 1).val; omega

/-- Window 1's array is read whole at every point. -/
theorem blk1 (c : Dev nD) (t : Fin cfg0.N) : (iblk0 V c 1 t : Mat 32 128) = V c main_arg3 := by
  obtain ⟨-, -, e0, e1, -⟩ := idx_facts t
  funext y
  show V c main_arg3 (((cfg0.win 1).blk t).view.emb y) = V c main_arg3 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 128 + 1 * (y 1).val = (y 1).val; omega

/-- Window 2's array is read whole at every point. -/
theorem blk2 (c : Dev nD) (t : Fin cfg0.N) : (iblk0 V c 2 t : Row 128) = V c main_arg4 := by
  obtain ⟨-, -, -, -, e0, -⟩ := idx_facts t
  funext y
  show V c main_arg4 (((cfg0.win 2).blk t).view.emb y) = V c main_arg4 y
  refine congrArg _ (funext fun a => Fin.ext ?_)
  match a with
  | ⟨0, _⟩ => show win0_2.index t (0 : Fin 1) * 128 + 1 * (y 0).val = (y 0).val; omega

/-- Window 3's array is read whole at every point. -/
theorem blk3 (c : Dev nD) (t : Fin cfg0.N) : (iblk0 V c 3 t : Mat 32 128) = V c main_arg9 := by
  obtain ⟨-, -, -, -, -, e0, e1, -⟩ := idx_facts t
  funext y
  show V c main_arg9 (((cfg0.win 3).blk t).view.emb y) = V c main_arg9 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 128 + 1 * (y 1).val = (y 1).val; omega

/-- Window 4's array is read whole at every point. -/
theorem blk4 (c : Dev nD) (t : Fin cfg0.N) : (iblk0 V c 4 t : Row 128) = V c main_arg10 := by
  obtain ⟨-, -, -, -, -, -, -, e0, -⟩ := idx_facts t
  funext y
  show V c main_arg10 (((cfg0.win 4).blk t).view.emb y) = V c main_arg10 y
  refine congrArg _ (funext fun a => Fin.ext ?_)
  match a with
  | ⟨0, _⟩ => show win0_4.index t (0 : Fin 1) * 128 + 1 * (y 0).val = (y 0).val; omega

/-- Block `t` of an array laid out like output window 5's is its rows `4800 t … 4800 t + 4799`. -/
theorem read5 (t : Fin cfg0.N) (G : Mat 600000 128) :
    (((cfg0.win 5).blk t).view.read (Elt Ideal) G : Mat 4800 128) = rowsFrom (4800 * t.val) (rows_le t) G := by
  obtain ⟨-, -, -, -, -, -, -, -, e0, e1, -⟩ := idx_facts t
  funext y
  show G (((cfg0.win 5).blk t).view.emb y) = G (ix2 ⟨4800 * t.val + (y 0).val, _⟩ (y 1))
  refine congrArg _ (funext fun a => Fin.ext ?_)
  match a with
  | ⟨0, _⟩ => show win0_5.index t (0 : Fin 2) * 4800 + 1 * (y 0).val = 4800 * t.val + (y 0).val; omega
  | ⟨1, _⟩ => show win0_5.index t (1 : Fin 2) * 128 + 1 * (y 1).val = (y 1).val; omega

/-- The first edge layer of the arrays as the region finds them. -/
abbrev G_5 (c : Dev nD) : Mat 600000 128 :=
  dense (V c main_arg2) (V c main_arg3) (V c main_arg4)

/-- What point `t` writes back through window 5 is block `t` of that function of the whole arrays. -/
theorem flushed_eq_5 (c : Dev nD) (t : Fin cfg0.N) :
    (dat0 V c).flushed 5 t = ((cfg0.win 5).blk t).view.read (Elt Ideal) (G_5 V c) := by
  show (cfg0.win 5).cut (grid0.coords t) ((dat0 V c).after 5 t) = _
  rw [after0_5]
  unfold out0_5
  rw [View.canon_unit_zero hz2]
  simp only [View.ld_unit_zero (S := S4800x32) hz2, View.ld_unit_zero (S := S32x128) hz2, View.ld_unit_zero (S := S128) hz1]
  rw [Cert.KernelIdeal.Pay.edge1]
  refine Eq.trans ?_ (read5 t (G_5 V c)).symm
  show dense (iblk0 V c 0 t : Mat 4800 32) (iblk0 V c 1 t : Mat 32 128) (iblk0 V c 2 t : Row 128) = _
  rw [blk0 V c t, blk1 V c t, blk2 V c t, dense_rows]

/-- An index is in point `t`'s block of window 5 iff its row is among the block's rows. -/
theorem mem_blk_5 (t : Fin cfg0.N) (i : S600000x128.Idx) :
    i ∈ ((cfg0.win 5).blk t).view.set ↔ ∀ a : Fin 2, win0_5.index t a * S4800x128.size a ≤ (i a).val ∧ (i a).val < win0_5.index t a * S4800x128.size a + S4800x128.size a := by
  show i ∈ ((View.whole main_v4_0).slice (win0_5.rect t)).set ↔ _
  rw [View.set_slice_whole, Rect.mem_set_unit]
  exact Iff.rfl

/-- Every index of the array is in some point's block. -/
theorem cover_5 (i : S600000x128.Idx) : ∃ t : Fin cfg0.N, (cfg0.win 5).flush t = true ∧ i ∈ ((cfg0.win 5).blk t).view.set := by
  have hi0 : (i 0).val < 600000 := (i 0).isLt
  have hi1 : (i 1).val < 128 := (i 1).isLt
  have hN : cfg0.N = 125 := N_0
  let t : Fin cfg0.N := ⟨(i 0).val / 4800, by omega⟩
  obtain ⟨-, -, -, -, -, -, -, -, e0, e1, -⟩ := idx_facts t
  have ht : t.val = (i 0).val / 4800 := rfl
  refine ⟨t, flush0_5 t, ?_⟩
  rw [mem_blk_5]
  intro a
  match a with
  | ⟨0, _⟩ => show win0_5.index t (0 : Fin 2) * 4800 ≤ (i 0).val ∧ (i 0).val < win0_5.index t (0 : Fin 2) * 4800 + 4800; omega
  | ⟨1, _⟩ => show win0_5.index t (1 : Fin 2) * 128 ≤ (i 1).val ∧ (i 1).val < win0_5.index t (1 : Fin 2) * 128 + 128; omega

/-- THE ARRAY of output window 5 after the region: that function of the arrays the region found. -/
theorem value_5 (c : Dev nD) : (dat0 V c).arrAt 5 cfg0.N = G_5 V c :=
  (dat0 V c).arrAt_eq_of_cover 5 (G_5 V c) (fun t _ => flushed_eq_5 V c t) cover_5

/-- Block `t` of an array laid out like output window 6's is its rows `4800 t … 4800 t + 4799`. -/
theorem read6 (t : Fin cfg0.N) (G : Mat 600000 128) :
    (((cfg0.win 6).blk t).view.read (Elt Ideal) G : Mat 4800 128) = rowsFrom (4800 * t.val) (rows_le t) G := by
  obtain ⟨-, -, -, -, -, -, -, -, -, -, e0, e1⟩ := idx_facts t
  funext y
  show G (((cfg0.win 6).blk t).view.emb y) = G (ix2 ⟨4800 * t.val + (y 0).val, _⟩ (y 1))
  refine congrArg _ (funext fun a => Fin.ext ?_)
  match a with
  | ⟨0, _⟩ => show win0_6.index t (0 : Fin 2) * 4800 + 1 * (y 0).val = 4800 * t.val + (y 0).val; omega
  | ⟨1, _⟩ => show win0_6.index t (1 : Fin 2) * 128 + 1 * (y 1).val = (y 1).val; omega

/-- The second edge layer of the arrays as the region finds them. -/
abbrev G_6 (c : Dev nD) : Mat 600000 128 :=
  dense (V c main_arg2) (V c main_arg9) (V c main_arg10)

/-- What point `t` writes back through window 6 is block `t` of that function of the whole arrays. -/
theorem flushed_eq_6 (c : Dev nD) (t : Fin cfg0.N) :
    (dat0 V c).flushed 6 t = ((cfg0.win 6).blk t).view.read (Elt Ideal) (G_6 V c) := by
  show (cfg0.win 6).cut (grid0.coords t) ((dat0 V c).after 6 t) = _
  rw [after0_6]
  unfold out0_6
  rw [View.canon_unit_zero hz2]
  simp only [View.ld_unit_zero (S := S4800x32) hz2, View.ld_unit_zero (S := S32x128) hz2, View.ld_unit_zero (S := S128) hz1]
  rw [Cert.KernelIdeal.Pay.edge2]
  refine Eq.trans ?_ (read6 t (G_6 V c)).symm
  show dense (iblk0 V c 0 t : Mat 4800 32) (iblk0 V c 3 t : Mat 32 128) (iblk0 V c 4 t : Row 128) = _
  rw [blk0 V c t, blk3 V c t, blk4 V c t, dense_rows]

/-- An index is in point `t`'s block of window 6 iff its row is among the block's rows. -/
theorem mem_blk_6 (t : Fin cfg0.N) (i : S600000x128.Idx) :
    i ∈ ((cfg0.win 6).blk t).view.set ↔ ∀ a : Fin 2, win0_6.index t a * S4800x128.size a ≤ (i a).val ∧ (i a).val < win0_6.index t a * S4800x128.size a + S4800x128.size a := by
  show i ∈ ((View.whole main_v4_1).slice (win0_6.rect t)).set ↔ _
  rw [View.set_slice_whole, Rect.mem_set_unit]
  exact Iff.rfl

/-- Every index of the array is in some point's block. -/
theorem cover_6 (i : S600000x128.Idx) : ∃ t : Fin cfg0.N, (cfg0.win 6).flush t = true ∧ i ∈ ((cfg0.win 6).blk t).view.set := by
  have hi0 : (i 0).val < 600000 := (i 0).isLt
  have hi1 : (i 1).val < 128 := (i 1).isLt
  have hN : cfg0.N = 125 := N_0
  let t : Fin cfg0.N := ⟨(i 0).val / 4800, by omega⟩
  obtain ⟨-, -, -, -, -, -, -, -, -, -, e0, e1⟩ := idx_facts t
  have ht : t.val = (i 0).val / 4800 := rfl
  refine ⟨t, flush0_6 t, ?_⟩
  rw [mem_blk_6]
  intro a
  match a with
  | ⟨0, _⟩ => show win0_6.index t (0 : Fin 2) * 4800 ≤ (i 0).val ∧ (i 0).val < win0_6.index t (0 : Fin 2) * 4800 + 4800; omega
  | ⟨1, _⟩ => show win0_6.index t (1 : Fin 2) * 128 ≤ (i 1).val ∧ (i 1).val < win0_6.index t (1 : Fin 2) * 128 + 128; omega

/-- THE ARRAY of output window 6 after the region: that function of the arrays the region found. -/
theorem value_6 (c : Dev nD) : (dat0 V c).arrAt 6 cfg0.N = G_6 V c :=
  (dat0 V c).arrAt_eq_of_cover 6 (G_6 V c) (fun t _ => flushed_eq_6 V c t) cover_6

end Cert.KernelIdeal.Region0

end
-- ==== Proof.Region1.lean ====
/-
  The first node kernel's output array, as one function of the arrays the region finds.

  The grid has 20 points; point `t` reads rows `5000 t … 5000 t + 4999` of the node features and of the aggregated
  messages, the weights and biases whole, and writes rows `5000 t … 5000 t + 4999` of the output. The update acts row
  by row, so what a point writes back is that block of rows of `conv` of the whole arrays; the 20 blocks tile the
  array, which therefore ends holding `conv x a Wa ba Wb bb`.
-/
import proofs.«134298_j7404523618681_2_alg».proof.Proof.Gen.KernelIdeal.Frame
import proofs.«134298_j7404523618681_2_alg».proof.Proof.Pay

set_option maxRecDepth 16384
set_option pp.maxSteps 3000
set_option pp.deepTerms false

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)
open Cert.Gine Cert.RowBlocks Cert.MatProd

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row windows move with the point, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem rows_le (t : Fin cfg1.N) : 5000 * t.val + 5000 ≤ 100000 := by
  have h1 : t.val < cfg1.N := t.isLt
  have h2 : cfg1.N = 20 := N_1
  omega

/-- Point `t`'s block of the node features. -/
theorem blk0 (c : Dev nD) (t : Fin cfg1.N) :
    (iblk1 V c 0 t : Mat 5000 128) = rowsFrom (5000 * t.val) (rows_le t) (V c main_arg0) := by
  obtain ⟨e0, e1, -⟩ := idx_facts t
  funext y
  show V c main_arg0 (((cfg1.win 0).blk t).view.emb y) = V c main_arg0 (ix2 ⟨5000 * t.val + (y 0).val, _⟩ (y 1))
  refine congrArg _ (funext fun a => Fin.ext ?_)
  match a with
  | ⟨0, _⟩ => show win1_0.index t (0 : Fin 2) * 5000 + 1 * (y 0).val = 5000 * t.val + (y 0).val; omega
  | ⟨1, _⟩ => show win1_0.index t (1 : Fin 2) * 128 + 1 * (y 1).val = (y 1).val; omega

/-- Point `t`'s block of the aggregated messages. -/
theorem blk1 (c : Dev nD) (t : Fin cfg1.N) :
    (iblk1 V c 1 t : Mat 5000 128) = rowsFrom (5000 * t.val) (rows_le t) (V c main_v17) := by
  obtain ⟨-, -, e0, e1, -⟩ := idx_facts t
  funext y
  show V c main_v17 (((cfg1.win 1).blk t).view.emb y) = V c main_v17 (ix2 ⟨5000 * t.val + (y 0).val, _⟩ (y 1))
  refine congrArg _ (funext fun a => Fin.ext ?_)
  match a with
  | ⟨0, _⟩ => show win1_1.index t (0 : Fin 2) * 5000 + 1 * (y 0).val = 5000 * t.val + (y 0).val; omega
  | ⟨1, _⟩ => show win1_1.index t (1 : Fin 2) * 128 + 1 * (y 1).val = (y 1).val; omega

/-- The weights and biases are read whole at every point. -/
theorem blk2 (c : Dev nD) (t : Fin cfg1.N) : (iblk1 V c 2 t : Mat 128 128) = V c main_arg5 := by
  obtain ⟨-, -, -, -, e0, e1, -⟩ := idx_facts t
  funext y
  show V c main_arg5 (((cfg1.win 2).blk t).view.emb y) = V c main_arg5 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blk3 (c : Dev nD) (t : Fin cfg1.N) : (iblk1 V c 3 t : Row 128) = V c main_arg6 := by
  obtain ⟨-, -, -, -, -, -, e0, -⟩ := idx_facts t
  funext y
  show V c main_arg6 (((cfg1.win 3).blk t).view.emb y) = V c main_arg6 y
  refine congrArg _ (funext fun a => Fin.ext ?_)
  match a with
  | ⟨0, _⟩ => show win1_3.index t (0 : Fin 1) * 128 + 1 * (y 0).val = (y 0).val; omega

theorem blk4 (c : Dev nD) (t : Fin cfg1.N) : (iblk1 V c 4 t : Mat 128 128) = V c main_arg7 := by
  obtain ⟨-, -, -, -, -, -, -, e0, e1, -⟩ := idx_facts t
  funext y
  show V c main_arg7 (((cfg1.win 4).blk t).view.emb y) = V c main_arg7 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem blk5 (c : Dev nD) (t : Fin cfg1.N) : (iblk1 V c 5 t : Row 128) = V c main_arg8 := by
  obtain ⟨-, -, -, -, -, -, -, -, -, e0, -⟩ := idx_facts t
  funext y
  show V c main_arg8 (((cfg1.win 5).blk t).view.emb y) = V c main_arg8 y
  refine congrArg _ (funext fun a => Fin.ext ?_)
  match a with
  | ⟨0, _⟩ => show win1_5.index t (0 : Fin 1) * 128 + 1 * (y 0).val = (y 0).val; omega

/-- Block `t` of an array laid out like the output is its rows `5000 t … 5000 t + 4999`. -/
theorem read6 (t : Fin cfg1.N) (G : Mat 100000 128) :
    (((cfg1.win 6).blk t).view.read (Elt Ideal) G : Mat 5000 128) = rowsFrom (5000 * t.val) (rows_le t) G := by
  obtain ⟨-, -, -, -, -, -, -, -, -, -, e0, e1⟩ := idx_facts t
  funext y
  show G (((cfg1.win 6).blk t).view.emb y) = G (ix2 ⟨5000 * t.val + (y 0).val, _⟩ (y 1))
  refine congrArg _ (funext fun a => Fin.ext ?_)
  match a with
  | ⟨0, _⟩ => show win1_6.index t (0 : Fin 2) * 5000 + 1 * (y 0).val = 5000 * t.val + (y 0).val; omega
  | ⟨1, _⟩ => show win1_6.index t (1 : Fin 2) * 128 + 1 * (y 1).val = (y 1).val; omega

/-- The update of the arrays as the region finds them. -/
abbrev G (c : Dev nD) : Mat 100000 128 :=
  conv (V c main_arg0) (V c main_v17) (V c main_arg5) (V c main_arg6) (V c main_arg7) (V c main_arg8)

/-- What point `t` writes back is block `t` of the update of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  rw [Cert.KernelIdeal.Pay.node1]
  refine Eq.trans ?_ (read6 t (G V c)).symm
  show conv (iblk1 V c 0 t : Mat 5000 128) (iblk1 V c 1 t : Mat 5000 128) (iblk1 V c 2 t : Mat 128 128) (iblk1 V c 3 t : Row 128)
    (iblk1 V c 4 t : Mat 128 128) (iblk1 V c 5 t : Row 128) = _
  rw [blk0 V c t, blk1 V c t, blk2 V c t, blk3 V c t, blk4 V c t, blk5 V c t, conv_rows]

/-- An index is in point `t`'s block iff its row is among the block's rows. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v18).slice (win1_6.rect t)).set ↔ _
  rw [View.set_slice_whole, Rect.mem_set_unit]
  exact Iff.rfl

/-- Every index of the output is in some point's block. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨-, -, -, -, -, -, -, -, -, -, e0, e1⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the region: the update of the arrays the region found. -/
theorem value (c : Dev nD) : (dat1 V c).arrAt 6 cfg1.N = G V c :=
  (dat1 V c).arrAt_eq_of_cover 6 (G V c) (fun t _ => flushed_eq V c t) cover

end Cert.KernelIdeal.Region1

end
-- ==== Proof.Region2.lean ====
/-
  The second node kernel's output array, as one function of the arrays the region finds.

  The grid has 50 points; point `t` reads rows `2000 t … 2000 t + 1999` of the node features and of the aggregated
  messages, every weight and bias whole, and writes rows `2000 t … 2000 t + 1999` of the output. The update and the
  read-out act row by row, so what a point writes back is that block of rows of `head (conv …) …` of the whole arrays;
  the 50 blocks tile the array, which therefore ends holding it.
-/
import proofs.«134298_j7404523618681_2_alg».proof.Proof.Gen.KernelIdeal.Frame
import proofs.«134298_j7404523618681_2_alg».proof.Proof.Pay

set_option maxRecDepth 16384
set_option pp.maxSteps 3000
set_option pp.deepTerms false

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)
open Cert.Gine Cert.RowBlocks Cert.MatProd

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row windows move with the point, the others stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = 0 ∧ win2_8.index t (1 : Fin 2) = 0
    ∧ win2_9.index t (0 : Fin 1) = 0
    ∧ win2_10.index t (0 : Fin 2) = t.val ∧ win2_10.index t (1 : Fin 2) = 0 :=
  (by decide +kernel : ∀ t : Fin grid2.N, _)

theorem rows_le (t : Fin cfg2.N) : 2000 * t.val + 2000 ≤ 100000 := by
  have h1 : t.val < cfg2.N := t.isLt
  have h2 : cfg2.N = 50 := N_2
  omega

/-- Point `t`'s block of rows of window 0's array. -/
theorem blk0 (c : Dev nD) (t : Fin cfg2.N) :
    (iblk2 V c 0 t : Mat 2000 128) = rowsFrom (2000 * t.val) (rows_le t) (V c main_v18) := by
  obtain ⟨e0, e1, -⟩ := idx_facts t
  funext y
  show V c main_v18 (((cfg2.win 0).blk t).view.emb y) = V c main_v18 (ix2 ⟨2000 * t.val + (y 0).val, _⟩ (y 1))
  refine congrArg _ (funext fun a => Fin.ext ?_)
  match a with
  | ⟨0, _⟩ => show win2_0.index t (0 : Fin 2) * 2000 + 1 * (y 0).val = 2000 * t.val + (y 0).val; omega
  | ⟨1, _⟩ => show win2_0.index t (1 : Fin 2) * 128 + 1 * (y 1).val = (y 1).val; omega

/-- Point `t`'s block of rows of window 1's array. -/
theorem blk1 (c : Dev nD) (t : Fin cfg2.N) :
    (iblk2 V c 1 t : Mat 2000 128) = rowsFrom (2000 * t.val) (rows_le t) (V c main_v31) := by
  obtain ⟨-, -, e0, e1, -⟩ := idx_facts t
  funext y
  show V c main_v31 (((cfg2.win 1).blk t).view.emb y) = V c main_v31 (ix2 ⟨2000 * t.val + (y 0).val, _⟩ (y 1))
  refine congrArg _ (funext fun a => Fin.ext ?_)
  match a with
  | ⟨0, _⟩ => show win2_1.index t (0 : Fin 2) * 2000 + 1 * (y 0).val = 2000 * t.val + (y 0).val; omega
  | ⟨1, _⟩ => show win2_1.index t (1 : Fin 2) * 128 + 1 * (y 1).val = (y 1).val; omega

/-- Window 2's array is read whole at every point. -/
theorem blk2 (c : Dev nD) (t : Fin cfg2.N) : (iblk2 V c 2 t : Mat 128 128) = V c main_arg11 := by
  obtain ⟨-, -, -, -, e0, e1, -⟩ := idx_facts t
  funext y
  show V c main_arg11 (((cfg2.win 2).blk t).view.emb y) = V c main_arg11 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's array is read whole at every point. -/
theorem blk3 (c : Dev nD) (t : Fin cfg2.N) : (iblk2 V c 3 t : Row 128) = V c main_arg12 := by
  obtain ⟨-, -, -, -, -, -, e0, -⟩ := idx_facts t
  funext y
  show V c main_arg12 (((cfg2.win 3).blk t).view.emb y) = V c main_arg12 y
  refine congrArg _ (funext fun a => Fin.ext ?_)
  match a with
  | ⟨0, _⟩ => show win2_3.index t (0 : Fin 1) * 128 + 1 * (y 0).val = (y 0).val; omega

/-- Window 4's array is read whole at every point. -/
theorem blk4 (c : Dev nD) (t : Fin cfg2.N) : (iblk2 V c 4 t : Mat 128 128) = V c main_arg13 := by
  obtain ⟨-, -, -, -, -, -, -, e0, e1, -⟩ := idx_facts t
  funext y
  show V c main_arg13 (((cfg2.win 4).blk t).view.emb y) = V c main_arg13 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's array is read whole at every point. -/
theorem blk5 (c : Dev nD) (t : Fin cfg2.N) : (iblk2 V c 5 t : Row 128) = V c main_arg14 := by
  obtain ⟨-, -, -, -, -, -, -, -, -, e0, -⟩ := idx_facts t
  funext y
  show V c main_arg14 (((cfg2.win 5).blk t).view.emb y) = V c main_arg14 y
  refine congrArg _ (funext fun a => Fin.ext ?_)
  match a with
  | ⟨0, _⟩ => show win2_5.index t (0 : Fin 1) * 128 + 1 * (y 0).val = (y 0).val; omega

/-- Window 6's array is read whole at every point. -/
theorem blk6 (c : Dev nD) (t : Fin cfg2.N) : (iblk2 V c 6 t : Mat 128 128) = V c main_arg15 := by
  obtain ⟨-, -, -, -, -, -, -, -, -, -, e0, e1, -⟩ := idx_facts t
  funext y
  show V c main_arg15 (((cfg2.win 6).blk t).view.emb y) = V c main_arg15 y
  refine congrArg _ (funext fun a => Fin.ext ?_)
  match a with
  | ⟨0, _⟩ => show win2_6.index t (0 : Fin 2) * 128 + 1 * (y 0).val = (y 0).val; omega
  | ⟨1, _⟩ => show win2_6.index t (1 : Fin 2) * 128 + 1 * (y 1).val = (y 1).val; omega

/-- Window 7's array is read whole at every point. -/
theorem blk7 (c : Dev nD) (t : Fin cfg2.N) : (iblk2 V c 7 t : Row 128) = V c main_arg16 := by
  obtain ⟨-, -, -, -, -, -, -, -, -, -, -, -, e0, -⟩ := idx_facts t
  funext y
  show V c main_arg16 (((cfg2.win 7).blk t).view.emb y) = V c main_arg16 y
  refine congrArg _ (funext fun a => Fin.ext ?_)
  match a with
  | ⟨0, _⟩ => show win2_7.index t (0 : Fin 1) * 128 + 1 * (y 0).val = (y 0).val; omega

/-- Window 8's array is read whole at every point. -/
theorem blk8 (c : Dev nD) (t : Fin cfg2.N) : (iblk2 V c 8 t : Mat 128 64) = V c main_arg17 := by
  obtain ⟨-, -, -, -, -, -, -, -, -, -, -, -, -, e0, e1, -⟩ := idx_facts t
  funext y
  show V c main_arg17 (((cfg2.win 8).blk t).view.emb y) = V c main_arg17 y
  refine congrArg _ (funext fun a => Fin.ext ?_)
  match a with
  | ⟨0, _⟩ => show win2_8.index t (0 : Fin 2) * 128 + 1 * (y 0).val = (y 0).val; omega
  | ⟨1, _⟩ => show win2_8.index t (1 : Fin 2) * 64 + 1 * (y 1).val = (y 1).val; omega

/-- Window 9's array is read whole at every point. -/
theorem blk9 (c : Dev nD) (t : Fin cfg2.N) : (iblk2 V c 9 t : Row 64) = V c main_arg18 := by
  obtain ⟨-, -, -, -, -, -, -, -, -, -, -, -, -, -, -, e0, -⟩ := idx_facts t
  funext y
  show V c main_arg18 (((cfg2.win 9).blk t).view.emb y) = V c main_arg18 y
  refine congrArg _ (funext fun a => Fin.ext ?_)
  match a with
  | ⟨0, _⟩ => show win2_9.index t (0 : Fin 1) * 64 + 1 * (y 0).val = (y 0).val; omega

/-- Block `t` of an array laid out like output window 10's is its rows `2000 t … 2000 t + 1999`. -/
theorem read10 (t : Fin cfg2.N) (G : Mat 100000 64) :
    (((cfg2.win 10).blk t).view.read (Elt Ideal) G : Mat 2000 64) = rowsFrom (2000 * t.val) (rows_le t) G := by
  obtain ⟨-, -, -, -, -, -, -, -, -, -, -, -, -, -, -, -, e0, e1⟩ := idx_facts t
  funext y
  show G (((cfg2.win 10).blk t).view.emb y) = G (ix2 ⟨2000 * t.val + (y 0).val, _⟩ (y 1))
  refine congrArg _ (funext fun a => Fin.ext ?_)
  match a with
  | ⟨0, _⟩ => show win2_10.index t (0 : Fin 2) * 2000 + 1 * (y 0).val = 2000 * t.val + (y 0).val; omega
  | ⟨1, _⟩ => show win2_10.index t (1 : Fin 2) * 64 + 1 * (y 1).val = (y 1).val; omega

/-- The update and the read-out of the arrays as the region finds them. -/
abbrev G (c : Dev nD) : Mat 100000 64 :=
  head (conv (V c main_v18) (V c main_v31) (V c main_arg11) (V c main_arg12) (V c main_arg13) (V c main_arg14)) (V c main_arg15) (V c main_arg16) (V c main_arg17) (V c main_arg18)

/-- What point `t` writes back through window 10 is block `t` of that function of the whole arrays. -/
theorem flushed_eq (c : Dev nD) (t : Fin cfg2.N) :
    (dat2 V c).flushed 10 t = ((cfg2.win 10).blk t).view.read (Elt Ideal) (G V c) := by
  show (cfg2.win 10).cut (grid2.coords t) ((dat2 V c).after 10 t) = _
  rw [after2_10]
  unfold out2_10
  rw [View.canon_unit_zero hz2]
  simp only [View.ld_unit_zero (S := S2000x128) hz2, View.ld_unit_zero (S := S128x128) hz2, View.ld_unit_zero (S := S128) hz1, View.ld_unit_zero (S := S128x64) hz2, View.ld_unit_zero (S := S64) hz1]
  rw [Cert.KernelIdeal.Pay.node2]
  refine Eq.trans ?_ (read10 t (G V c)).symm
  show head (conv (iblk2 V c 0 t : Mat 2000 128) (iblk2 V c 1 t : Mat 2000 128) (iblk2 V c 2 t : Mat 128 128) (iblk2 V c 3 t : Row 128) (iblk2 V c 4 t : Mat 128 128) (iblk2 V c 5 t : Row 128)) (iblk2 V c 6 t : Mat 128 128) (iblk2 V c 7 t : Row 128) (iblk2 V c 8 t : Mat 128 64) (iblk2 V c 9 t : Row 64) = _
  rw [blk0 V c t, blk1 V c t, blk2 V c t, blk3 V c t, blk4 V c t, blk5 V c t, blk6 V c t, blk7 V c t, blk8 V c t, blk9 V c t, conv_rows, head_rows]

/-- An index is in point `t`'s block of window 10 iff its row is among the block's rows. -/
theorem mem_blk (t : Fin cfg2.N) (i : S100000x64.Idx) :
    i ∈ ((cfg2.win 10).blk t).view.set ↔ ∀ a : Fin 2, win2_10.index t a * S2000x64.size a ≤ (i a).val ∧ (i a).val < win2_10.index t a * S2000x64.size a + S2000x64.size a := by
  show i ∈ ((View.whole main_v32).slice (win2_10.rect t)).set ↔ _
  rw [View.set_slice_whole, Rect.mem_set_unit]
  exact Iff.rfl

/-- Every index of the array is in some point's block. -/
theorem cover (i : S100000x64.Idx) : ∃ t : Fin cfg2.N, (cfg2.win 10).flush t = true ∧ i ∈ ((cfg2.win 10).blk t).view.set := by
  have hi0 : (i 0).val < 100000 := (i 0).isLt
  have hi1 : (i 1).val < 64 := (i 1).isLt
  have hN : cfg2.N = 50 := N_2
  let t : Fin cfg2.N := ⟨(i 0).val / 2000, by omega⟩
  obtain ⟨-, -, -, -, -, -, -, -, -, -, -, -, -, -, -, -, e0, e1⟩ := idx_facts t
  have ht : t.val = (i 0).val / 2000 := rfl
  refine ⟨t, flush2_10 t, ?_⟩
  rw [mem_blk]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 64 ≤ (i 1).val ∧ (i 1).val < win2_10.index t (1 : Fin 2) * 64 + 64; omega

/-- THE ARRAY of output window 10 after the region: that function of the arrays the region found. -/
theorem value (c : Dev nD) : (dat2 V c).arrAt 10 cfg2.N = G V c :=
  (dat2 V c).arrAt_eq_of_cover 10 (G V c) (fun t _ => flushed_eq V c t) cover

end Cert.KernelIdeal.Region2

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.Chain.lean ====
/-
  The idealized kernel's result, read back through the run's boundaries to the launch memory.

  The run's last boundary names the result as the second node kernel's output array. That region found the first
  node kernel's output as node features and, as aggregated messages, what the host operations between the regions
  computed from it, from the edge list and from the edge kernel's second output; the first node kernel in turn found
  the launch node features and the messages aggregated from them and the edge kernel's first output; the edge kernel
  found the launch edge features and weights. No host operation and no region writes an argument, the edge list's two
  rows or an array a later stage reads, so each is read at its launch or production contents. The host operations
  between the regions are the reference's own (a gather, an add, a clamp at zero, a scatter-add; the change of float
  format of the edge kernel's outputs is the identity over the extended reals), so the aggregation is never opened.
  Put together: the result is the reference network `net` of the launch arguments.
-/
import proofs.«134298_j7404523618681_2_alg».proof.Proof.Gen.KernelIdeal.Frame
import proofs.«134298_j7404523618681_2_alg».proof.Proof.Region0
import proofs.«134298_j7404523618681_2_alg».proof.Proof.Region1
import proofs.«134298_j7404523618681_2_alg».proof.Proof.Region2
import proofs.«134298_j7404523618681_2_alg».proof.Proof.HostForm
import proofs.«134298_j7404523618681_2_alg».proof.Proof.LibTypedRef

set_option maxRecDepth 16384
set_option pp.maxSteps 4000
set_option pp.deepTerms false

noncomputable section

namespace Cert.KernelIdeal.Chain

open Cert.KernelIdeal Cert.KernelIdeal.Gen Idealize.ShloMosaic Idealize.ShloMosaic.TcCoe Idealize.ShloMosaic.StableHlo
open Cert.Gine Cert.RowBlocks
open Cert.ReferenceIdeal.RefValue (agg net edgeLin convH headH)

variable (m : (ℓ : Loc nD τ sig) → Buf (Elt Ideal) ℓ) (ρ : Dev nD → PrngReg)

/-- A buffer that no operation of a stretch of host operations writes keeps its contents across the stretch. -/
local macro "host_keep" ops:ident r:ident : tactic => `(tactic| exact StableHlo.after_of_forall_not_mem (b := Proc.devRef .tc $r) _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## Buffers carried unchanged across the stretches of host operations -/

theorem keepA_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keep hostOps0 main_arg0
    _ = m ((c : Thread nD τ).loc main_arg0) := rfl

theorem keepA_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by host_keep hostOps0 main_arg2
    _ = m ((c : Thread nD τ).loc main_arg2) := rfl

theorem keepA_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keep hostOps0 main_arg3
    _ = m ((c : Thread nD τ).loc main_arg3) := rfl

theorem keepA_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_keep hostOps0 main_arg4
    _ = m ((c : Thread nD τ).loc main_arg4) := rfl

theorem keepA_main_arg9 (c : Dev nD) : W1 m ρ c (Proc.devRef .tc main_arg9) = m ((c : Thread nD τ).loc main_arg9) :=
  calc W1 m ρ c (Proc.devRef .tc main_arg9)
    _ = W0 m ρ c (Proc.devRef .tc main_arg9) := by host_keep hostOps0 main_arg9
    _ = m ((c : Thread nD τ).loc main_arg9) := rfl

theorem keepA_main_arg10 (c : Dev nD) : W1 m ρ c (Proc.devRef .tc main_arg10) = m ((c : Thread nD τ).loc main_arg10) :=
  calc W1 m ρ c (Proc.devRef .tc main_arg10)
    _ = W0 m ρ c (Proc.devRef .tc main_arg10) := by host_keep hostOps0 main_arg10
    _ = m ((c : Thread nD τ).loc main_arg10) := rfl

theorem keepB_main_arg0 (c : Dev nD) : W5 m ρ c (Proc.devRef .tc main_arg0) = W2 m ρ c (Proc.devRef .tc main_arg0) :=
  calc W5 m ρ c (Proc.devRef .tc main_arg0)
    _ = W4 m ρ c (Proc.devRef .tc main_arg0) := by host_keep hostOps1_2 main_arg0
    _ = W3 m ρ c (Proc.devRef .tc main_arg0) := by host_keep hostOps1_1 main_arg0
    _ = W2 m ρ c (Proc.devRef .tc main_arg0) := by host_keep hostOps1 main_arg0

theorem keepB_main_arg5 (c : Dev nD) : W5 m ρ c (Proc.devRef .tc main_arg5) = W2 m ρ c (Proc.devRef .tc main_arg5) :=
  calc W5 m ρ c (Proc.devRef .tc main_arg5)
    _ = W4 m ρ c (Proc.devRef .tc main_arg5) := by host_keep hostOps1_2 main_arg5
    _ = W3 m ρ c (Proc.devRef .tc main_arg5) := by host_keep hostOps1_1 main_arg5
    _ = W2 m ρ c (Proc.devRef .tc main_arg5) := by host_keep hostOps1 main_arg5

theorem keepB_main_arg6 (c : Dev nD) : W5 m ρ c (Proc.devRef .tc main_arg6) = W2 m ρ c (Proc.devRef .tc main_arg6) :=
  calc W5 m ρ c (Proc.devRef .tc main_arg6)
    _ = W4 m ρ c (Proc.devRef .tc main_arg6) := by host_keep hostOps1_2 main_arg6
    _ = W3 m ρ c (Proc.devRef .tc main_arg6) := by host_keep hostOps1_1 main_arg6
    _ = W2 m ρ c (Proc.devRef .tc main_arg6) := by host_keep hostOps1 main_arg6

theorem keepB_main_arg7 (c : Dev nD) : W5 m ρ c (Proc.devRef .tc main_arg7) = W2 m ρ c (Proc.devRef .tc main_arg7) :=
  calc W5 m ρ c (Proc.devRef .tc main_arg7)
    _ = W4 m ρ c (Proc.devRef .tc main_arg7) := by host_keep hostOps1_2 main_arg7
    _ = W3 m ρ c (Proc.devRef .tc main_arg7) := by host_keep hostOps1_1 main_arg7
    _ = W2 m ρ c (Proc.devRef .tc main_arg7) := by host_keep hostOps1 main_arg7

theorem keepB_main_arg8 (c : Dev nD) : W5 m ρ c (Proc.devRef .tc main_arg8) = W2 m ρ c (Proc.devRef .tc main_arg8) :=
  calc W5 m ρ c (Proc.devRef .tc main_arg8)
    _ = W4 m ρ c (Proc.devRef .tc main_arg8) := by host_keep hostOps1_2 main_arg8
    _ = W3 m ρ c (Proc.devRef .tc main_arg8) := by host_keep hostOps1_1 main_arg8
    _ = W2 m ρ c (Proc.devRef .tc main_arg8) := by host_keep hostOps1 main_arg8

theorem keepB_main_v1 (c : Dev nD) : W5 m ρ c (Proc.devRef .tc main_v1) = W2 m ρ c (Proc.devRef .tc main_v1) :=
  calc W5 m ρ c (Proc.devRef .tc main_v1)
    _ = W4 m ρ c (Proc.devRef .tc main_v1) := by host_keep hostOps1_2 main_v1
    _ = W3 m ρ c (Proc.devRef .tc main_v1) := by host_keep hostOps1_1 main_v1
    _ = W2 m ρ c (Proc.devRef .tc main_v1) := by host_keep hostOps1 main_v1

theorem keepB_main_v3 (c : Dev nD) : W5 m ρ c (Proc.devRef .tc main_v3) = W2 m ρ c (Proc.devRef .tc main_v3) :=
  calc W5 m ρ c (Proc.devRef .tc main_v3)
    _ = W4 m ρ c (Proc.devRef .tc main_v3) := by host_keep hostOps1_2 main_v3
    _ = W3 m ρ c (Proc.devRef .tc main_v3) := by host_keep hostOps1_1 main_v3
    _ = W2 m ρ c (Proc.devRef .tc main_v3) := by host_keep hostOps1 main_v3

theorem keepB_main_v4_1 (c : Dev nD) : W5 m ρ c (Proc.devRef .tc main_v4_1) = W2 m ρ c (Proc.devRef .tc main_v4_1) :=
  calc W5 m ρ c (Proc.devRef .tc main_v4_1)
    _ = W4 m ρ c (Proc.devRef .tc main_v4_1) := by host_keep hostOps1_2 main_v4_1
    _ = W3 m ρ c (Proc.devRef .tc main_v4_1) := by host_keep hostOps1_1 main_v4_1
    _ = W2 m ρ c (Proc.devRef .tc main_v4_1) := by host_keep hostOps1 main_v4_1

theorem keepC_main_v18 (c : Dev nD) : W9 m ρ c (Proc.devRef .tc main_v18) = W6 m ρ c (Proc.devRef .tc main_v18) :=
  calc W9 m ρ c (Proc.devRef .tc main_v18)
    _ = W8 m ρ c (Proc.devRef .tc main_v18) := by host_keep hostOps2_2 main_v18
    _ = W7 m ρ c (Proc.devRef .tc main_v18) := by host_keep hostOps2_1 main_v18
    _ = W6 m ρ c (Proc.devRef .tc main_v18) := by host_keep hostOps2 main_v18

/-! ## The launch arguments, as each region finds them -/

theorem W5_main_arg0 (c : Dev nD) : W5 m ρ c (Proc.devRef .tc main_arg0) = m ((c : Thread nD τ).loc main_arg0) :=
  (keepB_main_arg0 m ρ c).trans ((W2_of_ne m ρ c main_arg0 (by decide)).trans (keepA_main_arg0 m ρ c))

theorem W5_main_arg5 (c : Dev nD) : W5 m ρ c (Proc.devRef .tc main_arg5) = m ((c : Thread nD τ).loc main_arg5) :=
  (keepB_main_arg5 m ρ c).trans ((W2_of_ne m ρ c main_arg5 (by decide)).trans (by
    calc W1 m ρ c (Proc.devRef .tc main_arg5)
      _ = W0 m ρ c (Proc.devRef .tc main_arg5) := by host_keep hostOps0 main_arg5
      _ = m ((c : Thread nD τ).loc main_arg5) := rfl))

theorem W5_main_arg6 (c : Dev nD) : W5 m ρ c (Proc.devRef .tc main_arg6) = m ((c : Thread nD τ).loc main_arg6) :=
  (keepB_main_arg6 m ρ c).trans ((W2_of_ne m ρ c main_arg6 (by decide)).trans (by
    calc W1 m ρ c (Proc.devRef .tc main_arg6)
      _ = W0 m ρ c (Proc.devRef .tc main_arg6) := by host_keep hostOps0 main_arg6
      _ = m ((c : Thread nD τ).loc main_arg6) := rfl))

theorem W5_main_arg7 (c : Dev nD) : W5 m ρ c (Proc.devRef .tc main_arg7) = m ((c : Thread nD τ).loc main_arg7) :=
  (keepB_main_arg7 m ρ c).trans ((W2_of_ne m ρ c main_arg7 (by decide)).trans (by
    calc W1 m ρ c (Proc.devRef .tc main_arg7)
      _ = W0 m ρ c (Proc.devRef .tc main_arg7) := by host_keep hostOps0 main_arg7
      _ = m ((c : Thread nD τ).loc main_arg7) := rfl))

theorem W5_main_arg8 (c : Dev nD) : W5 m ρ c (Proc.devRef .tc main_arg8) = m ((c : Thread nD τ).loc main_arg8) :=
  (keepB_main_arg8 m ρ c).trans ((W2_of_ne m ρ c main_arg8 (by decide)).trans (by
    calc W1 m ρ c (Proc.devRef .tc main_arg8)
      _ = W0 m ρ c (Proc.devRef .tc main_arg8) := by host_keep hostOps0 main_arg8
      _ = m ((c : Thread nD τ).loc main_arg8) := rfl))

theorem W9_main_arg11 (c : Dev nD) : W9 m ρ c (Proc.devRef .tc main_arg11) = m ((c : Thread nD τ).loc main_arg11) :=
  ((W10_arr m ρ c 2).trans (((dat2 (V9 m ρ) c).arrAt_in 2 rfl _).trans (A_eq2 (V9 m ρ) c 2))).symm.trans (W10_main_arg11 m ρ c)

theorem W9_main_arg12 (c : Dev nD) : W9 m ρ c (Proc.devRef .tc main_arg12) = m ((c : Thread nD τ).loc main_arg12) :=
  ((W10_arr m ρ c 3).trans (((dat2 (V9 m ρ) c).arrAt_in 3 rfl _).trans (A_eq2 (V9 m ρ) c 3))).symm.trans (W10_main_arg12 m ρ c)

theorem W9_main_arg13 (c : Dev nD) : W9 m ρ c (Proc.devRef .tc main_arg13) = m ((c : Thread nD τ).loc main_arg13) :=
  ((W10_arr m ρ c 4).trans (((dat2 (V9 m ρ) c).arrAt_in 4 rfl _).trans (A_eq2 (V9 m ρ) c 4))).symm.trans (W10_main_arg13 m ρ c)

theorem W9_main_arg14 (c : Dev nD) : W9 m ρ c (Proc.devRef .tc main_arg14) = m ((c : Thread nD τ).loc main_arg14) :=
  ((W10_arr m ρ c 5).trans (((dat2 (V9 m ρ) c).arrAt_in 5 rfl _).trans (A_eq2 (V9 m ρ) c 5))).symm.trans (W10_main_arg14 m ρ c)

theorem W9_main_arg15 (c : Dev nD) : W9 m ρ c (Proc.devRef .tc main_arg15) = m ((c : Thread nD τ).loc main_arg15) :=
  ((W10_arr m ρ c 6).trans (((dat2 (V9 m ρ) c).arrAt_in 6 rfl _).trans (A_eq2 (V9 m ρ) c 6))).symm.trans (W10_main_arg15 m ρ c)

theorem W9_main_arg16 (c : Dev nD) : W9 m ρ c (Proc.devRef .tc main_arg16) = m ((c : Thread nD τ).loc main_arg16) :=
  ((W10_arr m ρ c 7).trans (((dat2 (V9 m ρ) c).arrAt_in 7 rfl _).trans (A_eq2 (V9 m ρ) c 7))).symm.trans (W10_main_arg16 m ρ c)

theorem W9_main_arg17 (c : Dev nD) : W9 m ρ c (Proc.devRef .tc main_arg17) = m ((c : Thread nD τ).loc main_arg17) :=
  ((W10_arr m ρ c 8).trans (((dat2 (V9 m ρ) c).arrAt_in 8 rfl _).trans (A_eq2 (V9 m ρ) c 8))).symm.trans (W10_main_arg17 m ρ c)

theorem W9_main_arg18 (c : Dev nD) : W9 m ρ c (Proc.devRef .tc main_arg18) = m ((c : Thread nD τ).loc main_arg18) :=
  ((W10_arr m ρ c 9).trans (((dat2 (V9 m ρ) c).arrAt_in 9 rfl _).trans (A_eq2 (V9 m ρ) c 9))).symm.trans (W10_main_arg18 m ρ c)

/-! ## The edge list's two rows -/

theorem src_eq (c : Dev nD) : W2 m ρ c (Proc.devRef .tc main_v1)
    = shapeCast _ (extractStridedSlice S1x600000 ![0, 0] (m ((c : Thread nD τ).loc main_arg1)) Gen.slices_S2x600000_S1x600000_0_0) Gen.shapeCasts_S1x600000_S600000 := by
  refine (W2_of_ne m ρ c main_v1 (by decide)).trans ?_
  dsimp only [W1, hostOps0]
  after_results
  rfl

theorem dst_eq (c : Dev nD) : W2 m ρ c (Proc.devRef .tc main_v3)
    = shapeCast _ (extractStridedSlice S1x600000 ![1, 0] (m ((c : Thread nD τ).loc main_arg1)) Gen.slices_S2x600000_S1x600000_1_0) Gen.shapeCasts_S1x600000_S600000 := by
  refine (W2_of_ne m ρ c main_v3 (by decide)).trans ?_
  dsimp only [W1, hostOps0]
  after_results
  rfl

/-! ## The edge kernel's outputs -/

theorem e1_eq (c : Dev nD) : W2 m ρ c (Proc.devRef .tc main_v4_0) = (dense (m ((c : Thread nD τ).loc main_arg2)) (m ((c : Thread nD τ).loc main_arg3)) (m ((c : Thread nD τ).loc main_arg4)) : Mat 600000 128) := by
  refine (W2_arr m ρ c 5).trans ((Cert.KernelIdeal.Region0.value_5 (V1 m ρ) c).trans ?_)
  show dense (W1 m ρ c (Proc.devRef .tc main_arg2)) (W1 m ρ c (Proc.devRef .tc main_arg3)) (W1 m ρ c (Proc.devRef .tc main_arg4)) = _
  rw [keepA_main_arg2, keepA_main_arg3, keepA_main_arg4]

theorem e2_eq (c : Dev nD) : W2 m ρ c (Proc.devRef .tc main_v4_1) = (dense (m ((c : Thread nD τ).loc main_arg2)) (m ((c : Thread nD τ).loc main_arg9)) (m ((c : Thread nD τ).loc main_arg10)) : Mat 600000 128) := by
  refine (W2_arr m ρ c 6).trans ((Cert.KernelIdeal.Region0.value_6 (V1 m ρ) c).trans ?_)
  show dense (W1 m ρ c (Proc.devRef .tc main_arg2)) (W1 m ρ c (Proc.devRef .tc main_arg9)) (W1 m ρ c (Proc.devRef .tc main_arg10)) = _
  rw [keepA_main_arg2, keepA_main_arg9, keepA_main_arg10]

/-! ## The first aggregation and the first update -/

theorem W2_main_arg0 (c : Dev nD) : W2 m ρ c (Proc.devRef .tc main_arg0) = m ((c : Thread nD τ).loc main_arg0) :=
  (W2_of_ne m ρ c main_arg0 (by decide)).trans (keepA_main_arg0 m ρ c)

/-- The messages aggregated from the launch node features and the first edge layer. -/
abbrev A1 (c : Dev nD) : Mat 100000 128 := agg (m ((c : Thread nD τ).loc main_arg0)) (m ((c : Thread nD τ).loc main_arg1)) (dense (m ((c : Thread nD τ).loc main_arg2)) (m ((c : Thread nD τ).loc main_arg3)) (m ((c : Thread nD τ).loc main_arg4)) : Mat 600000 128)

theorem agg1_eq (c : Dev nD) : W5 m ρ c (Proc.devRef .tc main_v17) = A1 m c := by
  dsimp only [W5, W4, W3, hostOps1, hostOps1_1, hostOps1_2]
  after_results_simp
  simp only [Cert.TypedRef.ofBuf_toBuf, Cert.TypedRef.toBuf_of, Cert.TypedRef.ofBuf_of]
  rw [src_eq, dst_eq, e1_eq, W2_main_arg0]
  unfold A1 agg Cert.ReferenceIdeal.RefValue.srcIdx Cert.ReferenceIdeal.RefValue.dstIdx
  rfl

/-- The node features after the first update. -/
abbrev H1 (c : Dev nD) : Mat 100000 128 := conv (m ((c : Thread nD τ).loc main_arg0)) (A1 m c) (m ((c : Thread nD τ).loc main_arg5)) (m ((c : Thread nD τ).loc main_arg6)) (m ((c : Thread nD τ).loc main_arg7)) (m ((c : Thread nD τ).loc main_arg8))

theorem h1_eq (c : Dev nD) : W6 m ρ c (Proc.devRef .tc main_v18) = H1 m c := by
  refine (W6_arr m ρ c 6).trans ((Cert.KernelIdeal.Region1.value (V5 m ρ) c).trans ?_)
  show conv (W5 m ρ c (Proc.devRef .tc main_arg0)) (W5 m ρ c (Proc.devRef .tc main_v17)) (W5 m ρ c (Proc.devRef .tc main_arg5)) (W5 m ρ c (Proc.devRef .tc main_arg6))
    (W5 m ρ c (Proc.devRef .tc main_arg7)) (W5 m ρ c (Proc.devRef .tc main_arg8)) = _
  rw [W5_main_arg0, agg1_eq, W5_main_arg5, W5_main_arg6, W5_main_arg7, W5_main_arg8]

/-! ## The second aggregation, the second update and the read-out -/

theorem W6_src (c : Dev nD) : W6 m ρ c (Proc.devRef .tc main_v1)
    = shapeCast _ (extractStridedSlice S1x600000 ![0, 0] (m ((c : Thread nD τ).loc main_arg1)) Gen.slices_S2x600000_S1x600000_0_0) Gen.shapeCasts_S1x600000_S600000 :=
  (W6_of_ne m ρ c main_v1 (by decide)).trans ((keepB_main_v1 m ρ c).trans (src_eq m ρ c))

theorem W6_dst (c : Dev nD) : W6 m ρ c (Proc.devRef .tc main_v3)
    = shapeCast _ (extractStridedSlice S1x600000 ![1, 0] (m ((c : Thread nD τ).loc main_arg1)) Gen.slices_S2x600000_S1x600000_1_0) Gen.shapeCasts_S1x600000_S600000 :=
  (W6_of_ne m ρ c main_v3 (by decide)).trans ((keepB_main_v3 m ρ c).trans (dst_eq m ρ c))

theorem W6_e2 (c : Dev nD) : W6 m ρ c (Proc.devRef .tc main_v4_1) = (dense (m ((c : Thread nD τ).loc main_arg2)) (m ((c : Thread nD τ).loc main_arg9)) (m ((c : Thread nD τ).loc main_arg10)) : Mat 600000 128) :=
  (W6_of_ne m ρ c main_v4_1 (by decide)).trans ((keepB_main_v4_1 m ρ c).trans (e2_eq m ρ c))

/-- The messages aggregated from the updated node features and the second edge layer. -/
abbrev A2 (c : Dev nD) : Mat 100000 128 := agg (H1 m c) (m ((c : Thread nD τ).loc main_arg1)) (dense (m ((c : Thread nD τ).loc main_arg2)) (m ((c : Thread nD τ).loc main_arg9)) (m ((c : Thread nD τ).loc main_arg10)) : Mat 600000 128)

theorem agg2_eq (c : Dev nD) : W9 m ρ c (Proc.devRef .tc main_v31) = A2 m c := by
  dsimp only [W9, W8, W7, hostOps2, hostOps2_1, hostOps2_2]
  after_results_simp
  simp only [Cert.TypedRef.ofBuf_toBuf, Cert.TypedRef.toBuf_of, Cert.TypedRef.ofBuf_of]
  rw [W6_src, W6_dst, W6_e2, h1_eq]
  unfold A2 agg Cert.ReferenceIdeal.RefValue.srcIdx Cert.ReferenceIdeal.RefValue.dstIdx
  rfl

/-- THE RESULT: the buffer the run's last boundary names is the reference network of the launch arguments. -/
theorem out_eq (c : Dev nD) : W10 m ρ c (Proc.devRef .tc main_v32)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W10_arr m ρ c 10).trans ((Cert.KernelIdeal.Region2.value (V9 m ρ) c).trans ?_)
  show head (conv (W9 m ρ c (Proc.devRef .tc main_v18)) (W9 m ρ c (Proc.devRef .tc main_v31)) (W9 m ρ c (Proc.devRef .tc main_arg11)) (W9 m ρ c (Proc.devRef .tc main_arg12))
      (W9 m ρ c (Proc.devRef .tc main_arg13)) (W9 m ρ c (Proc.devRef .tc main_arg14))) (W9 m ρ c (Proc.devRef .tc main_arg15)) (W9 m ρ c (Proc.devRef .tc main_arg16))
      (W9 m ρ c (Proc.devRef .tc main_arg17)) (W9 m ρ c (Proc.devRef .tc main_arg18)) = _
  rw [keepC_main_v18, h1_eq, agg2_eq, W9_main_arg11, W9_main_arg12, W9_main_arg13, W9_main_arg14, W9_main_arg15, W9_main_arg16,
    W9_main_arg17, W9_main_arg18]
  unfold net
  simp only [Cert.ReferenceIdeal.RefValue.headH_eq, Cert.ReferenceIdeal.RefValue.convH_eq, Cert.ReferenceIdeal.RefValue.edgeLin_eq]

end Cert.KernelIdeal.Chain

end
-- ==== Proof.lean ====
/-
  A two-layer edge-conditioned graph network with a two-layer read-out, on 100000 nodes and 600000 edges:
      e_k   = edge_feats · We_k + be_k                                  (k = 1, 2)
      agg_k = for every node, the sum over its incoming edges of max (h[source] + e_k, 0)
      h'    = tanh (max ((h + agg_k) · Wa + ba, 0) · Wb + bb)
      out   = tanh (h'' · Wfc1 + bfc1) · Wfc2 + bfc2.
  The kernel program computes both edge layers in one tiled kernel, each node update in a kernel tiled over blocks of
  rows (the second fused with the read-out), and the gathers, clamps and scatter-adds between them with the same host
  operations as the reference. Over the extended reals a change of float format is the identity and a matrix product
  into a zero accumulator is the plain product, and every layer acts row by row, so each tiled kernel leaves exactly
  the whole-array layer the reference applies; the two programs are then one composition of the same functions of the
  arguments. No sum is re-ordered and no factor is moved across a sum, so the precondition is never opened.

  The three frames: the two kernel programs' are the generated frame certificates; the reference's is its generated run
  with the result dropped. The idealization rewrote nothing, so there is nothing to preserve.
-/
import proofs.«134298_j7404523618681_2_alg».proof.Defs
import proofs.«134298_j7404523618681_2_alg».proof.Proof.Gen.Kernel
import proofs.«134298_j7404523618681_2_alg».proof.Proof.Gen.Kernel.Frame
import proofs.«134298_j7404523618681_2_alg».proof.Proof.Gen.KernelIdeal
import proofs.«134298_j7404523618681_2_alg».proof.Proof.Gen.KernelIdeal.Frame
import proofs.«134298_j7404523618681_2_alg».proof.Proof.Gen.ReferenceIdeal
import proofs.«134298_j7404523618681_2_alg».proof.Proof.Gen.Pre_finite_inputs
import proofs.«134298_j7404523618681_2_alg».proof.Proof.Gen.ReferenceIdeal.Run
import proofs.«134298_j7404523618681_2_alg».proof.Proof.KRun
import proofs.«134298_j7404523618681_2_alg».proof.Proof.HostForm
import proofs.«134298_j7404523618681_2_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference network of the arguments as
    their result: the kernel's run names its result, which reads back to the network (`Chain.out_eq`); the
    reference's printed result is the network by regrouping (`res_eq`). -/
theorem algebraic : Cert.algebraic_KernelIdeal_ReferenceIdeal := by
  intro m ρ m' ρ' _ hagree
  refine ⟨_, Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.RefValue.res_eq, a0, a1, a2, a3, a4, a5, a6, a7, a8, a9, a10, a11, a12, a13, a14, a15, a16, a17, a18]
  exact (Cert.KernelIdeal.Chain.out_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
